-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x128 : Shape := ⟨4, ![4, 16, 4096, 128]⟩
abbrev S4x16x128x128 : Shape := ⟨4, ![4, 16, 128, 128]⟩
abbrev S4x16x128x1 : Shape := ⟨4, ![4, 16, 128, 1]⟩
abbrev S_ : Shape := ⟨0, ![]⟩

class Facts : Prop where
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  h_S_ : 0 < S_.numel
  bcast_S_S4x16x128x128 : S_.BroadcastsInDim S4x16x128x128 (![] : Fin 0 → Fin S4x16x128x128.rank)
  reducesTo_S4x16x128x128_S_d0_1_2_3 : S4x16x128x128.ReducesTo [0, 1, 2, 3] S_
  bcast_S_S4x16x128x1 : S_.BroadcastsInDim S4x16x128x1 (![] : Fin 0 → Fin S4x16x128x1.rank)
  reducesTo_S4x16x128x1_S_d0_1_2_3 : S4x16x128x1.ReducesTo [0, 1, 2, 3] S_

variable [Facts]

def fn_part1 {F : FTy → Type} [FloatOps F] (main_arg4 : FVec F S4x16x128x1 .f32) (main_v13 : IVec S_ 1) (main_v16 : IVec S4x16x128x128 1) : IVec S_ 1 :=
  let main_c_5 : IVec S_ 1 := constantI S_ 1 1#1
  let main_v17 : IVec S_ 1 := (fun x v => Host.reduce IntOp.andi x v reducesTo_S4x16x128x128_S_d0_1_2_3 h_S_) main_v16 main_c_5
  let main_v18 : IVec S_ 1 := andi main_v13 main_v17
  let main_v19 : FVec F S4x16x128x1 .f32 := Host.absf main_arg4
  let main_cst_6 : FVec F S_ .f32 := constant S_ .f32 0x7F800000#32
  let main_v20 : FVec F S4x16x128x1 .f32 := broadcastInDim S4x16x128x1 ![] bcast_S_S4x16x128x1 main_cst_6
  let main_v21 : IVec S4x16x128x1 1 := cmpf .olt main_v19 main_v20
  let main_c_7 : IVec S_ 1 := constantI S_ 1 1#1
  let main_v22 : IVec S_ 1 := (fun x v => Host.reduce IntOp.andi x v reducesTo_S4x16x128x1_S_d0_1_2_3 h_S_) main_v21 main_c_7
  let main_v23 : IVec S_ 1 := andi main_v18 main_v22
  main_v23

def fn {F : FTy → Type} [FloatOps F] (main_arg0 : FVec F S4x16x4096x128 .f32) (main_arg1 : FVec F S4x16x4096x128 .f32) (main_arg2 : FVec F S4x16x4096x128 .f32) (main_arg3 : FVec F S4x16x128x128 .f32) (main_arg4 : FVec F S4x16x128x1 .f32) : IVec S_ 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_c : IVec S_ 1 := constantI S_ 1 1#1
  let main_v3 : IVec S_ 1 := (fun x v => Host.reduce IntOp.andi x v reducesTo_S4x16x4096x128_S_d0_1_2_3 h_S_) main_v2 main_c
  let main_v4 : FVec F S4x16x4096x128 .f32 := Host.absf main_arg1
  let main_cst_0 : FVec F S_ .f32 := constant S_ .f32 0x7F800000#32
  let main_v5 : FVec F S4x16x4096x128 .f32 := broadcastInDim S4x16x4096x128 ![] bcast_S_S4x16x4096x128 main_cst_0
  let main_v6 : IVec S4x16x4096x128 1 := cmpf .olt main_v4 main_v5
  let main_c_1 : IVec S_ 1 := constantI S_ 1 1#1
  let main_v7 : IVec S_ 1 := (fun x v => Host.reduce IntOp.andi x v reducesTo_S4x16x4096x128_S_d0_1_2_3 h_S_) main_v6 main_c_1
  let main_v8 : IVec S_ 1 := andi main_v3 main_v7
  let main_v9 : FVec F S4x16x4096x128 .f32 := Host.absf main_arg2
  let main_cst_2 : FVec F S_ .f32 := constant S_ .f32 0x7F800000#32
  let main_v10 : FVec F S4x16x4096x128 .f32 := broadcastInDim S4x16x4096x128 ![] bcast_S_S4x16x4096x128 main_cst_2
  let main_v11 : IVec S4x16x4096x128 1 := cmpf .olt main_v9 main_v10
  let main_c_3 : IVec S_ 1 := constantI S_ 1 1#1
  let main_v12 : IVec S_ 1 := (fun x v => Host.reduce IntOp.andi x v reducesTo_S4x16x4096x128_S_d0_1_2_3 h_S_) main_v11 main_c_3
  let main_v13 : IVec S_ 1 := andi main_v8 main_v12
  let main_v14 : FVec F S4x16x128x128 .f32 := Host.absf main_arg3
  let main_cst_4 : FVec F S_ .f32 := constant S_ .f32 0x7F800000#32
  let main_v15 : FVec F S4x16x128x128 .f32 := broadcastInDim S4x16x128x128 ![] bcast_S_S4x16x128x128 main_cst_4
  let main_v16 : IVec S4x16x128x128 1 := cmpf .olt main_v14 main_v15
  fn_part1 (F := F) main_arg4 main_v13 main_v16
-- ==== Kernel.lean ====
abbrev S4x16x4096x128 : Shape := ⟨4, ![4, 16, 4096, 128]⟩
abbrev S4x16x128x128 : Shape := ⟨4, ![4, 16, 128, 128]⟩
abbrev S4x16x128x1 : Shape := ⟨4, ![4, 16, 128, 1]⟩
abbrev S64x4096x128 : Shape := ⟨3, ![64, 4096, 128]⟩
abbrev S64x128x128 : Shape := ⟨3, ![64, 128, 128]⟩
abbrev S64x1x128 : Shape := ⟨3, ![64, 1, 128]⟩
abbrev S1x4096x128 : Shape := ⟨3, ![1, 4096, 128]⟩
abbrev S1x128x128 : Shape := ⟨3, ![1, 128, 128]⟩
abbrev S1x1x128 : Shape := ⟨3, ![1, 1, 128]⟩
abbrev S4096x128 : Shape := ⟨2, ![4096, 128]⟩
abbrev S128x128 : Shape := ⟨2, ![128, 128]⟩
abbrev S1x128 : Shape := ⟨2, ![1, 128]⟩
abbrev S4096 : Shape := ⟨1, ![4096]⟩
abbrev S4096x1 : Shape := ⟨2, ![4096, 1]⟩
abbrev S128 : Shape := ⟨1, ![128]⟩

abbrev nBuf : Space → Nat
  | .hbm => 16
  | .vmem => 16
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x128, .f32⟩
  | .hbm, ⟨4, _⟩ => ⟨S4x16x128x1, .f32⟩
  | .hbm, ⟨5, _⟩ => ⟨S64x4096x128, .f32⟩
  | .hbm, ⟨6, _⟩ => ⟨S64x4096x128, .f32⟩
  | .hbm, ⟨7, _⟩ => ⟨S64x4096x128, .f32⟩
  | .hbm, ⟨8, _⟩ => ⟨S64x128x128, .f32⟩
  | .hbm, ⟨9, _⟩ => ⟨S64x1x128, .f32⟩
  | .hbm, ⟨10, _⟩ => ⟨S64x4096x128, .f32⟩
  | .hbm, ⟨11, _⟩ => ⟨S64x128x128, .f32⟩
  | .hbm, ⟨12, _⟩ => ⟨S64x1x128, .f32⟩
  | .hbm, ⟨13, _⟩ => ⟨S4x16x4096x128, .f32⟩
  | .hbm, ⟨14, _⟩ => ⟨S4x16x128x128, .f32⟩
  | .hbm, ⟨15, _⟩ => ⟨S4x16x128x1, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S1x4096x128, .f32⟩
  | .local _ .vmem, ⟨11, _⟩ => ⟨S1x4096x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | _, _ => ⟨S4x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x16x4096x128_S64x4096x128 : S4x16x4096x128.ShapeCasts S64x4096x128
  shapeCasts_S4x16x128x128_S64x128x128 : S4x16x128x128.ShapeCasts S64x128x128
  shapeCasts_S4x16x128x1_S64x1x128 : S4x16x128x1.ShapeCasts S64x1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  reduces_S4096x128_S128 : S4096x128.Reduces [0] S128
  shapeCasts_S128_S1x128 : S128.ShapeCasts S1x128
  shapeCasts_S128x128_S1x128x128 : S128x128.ShapeCasts S1x128x128
  shapeCasts_S1x128_S1x1x128 : S1x128.ShapeCasts S1x1x128
  shapeCasts_S4096x128_S1x4096x128 : S4096x128.ShapeCasts S1x4096x128
  shapeCasts_S64x4096x128_S4x16x4096x128 : S64x4096x128.ShapeCasts S4x16x4096x128
  shapeCasts_S64x128x128_S4x16x128x128 : S64x128x128.ShapeCasts S4x16x128x128
  shapeCasts_S64x1x128_S4x16x128x1 : S64x1x128.ShapeCasts S4x16x128x1
  dot_S4096x128_S128x128_S4096x128_1_0_0_1_n_n_wf : DotDims.WF S4096x128 S128x128 S4096x128 [1] [0] [0] [1] [] []
  dot_S4096x128_S4096x128_S128x128_0_0_1_1_n_n_wf : DotDims.WF S4096x128 S4096x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S64x4096x128.size a
  hwx0_1 : ∀ i : grid0.Coords, EltTy.bits .f32 = 32 ∨ (Rect.block (s := S64x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S64x4096x128.size a
  hwx0_2 : ∀ i : grid0.Coords, EltTy.bits .f32 = 32 ∨ (Rect.block (s := S64x4096x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S64x128x128.size a
  hwx0_3 : ∀ i : grid0.Coords, EltTy.bits .f32 = 32 ∨ (Rect.block (s := S64x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S64x1x128.size a
  hwx0_4 : ∀ i : grid0.Coords, EltTy.bits .f32 = 32 ∨ (Rect.block (s := S64x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S64x4096x128.size a
  hwx0_5 : ∀ i : grid0.Coords, EltTy.bits .f32 = 32 ∨ (Rect.block (s := S64x4096x128) S1x4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S64x128x128.size a
  hwx0_6 : ∀ i : grid0.Coords, EltTy.bits .f32 = 32 ∨ (Rect.block (s := S64x128x128) S1x128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S64x1x128.size a
  hwx0_7 : ∀ i : grid0.Coords, EltTy.bits .f32 = 32 ∨ (Rect.block (s := S64x1x128) S1x1x128.size (cc0_transform_7 i) (hinb0_7 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf

abbrev win0_0 : Pipeline.Window sig grid0 :=
  Pipeline.Window.ofSpec (Memref.whole main_v1) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x16x4096x128 : Shape := ⟨4, ![4, 16, 4096, 128]⟩
abbrev S4x16x128x128 : Shape := ⟨4, ![4, 16, 128, 128]⟩
abbrev S4x16x128x1 : Shape := ⟨4, ![4, 16, 128, 1]⟩
abbrev S_ : Shape := ⟨0, ![]⟩
abbrev S4x16x4096x1 : Shape := ⟨4, ![4, 16, 4096, 1]⟩
abbrev S4x16x128 : Shape := ⟨3, ![4, 16, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x128, .f32⟩
  | .hbm, ⟨4, _⟩ => ⟨S4x16x128x1, .f32⟩
  | .hbm, ⟨5, _⟩ => ⟨S_, .f32⟩
  | .hbm, ⟨6, _⟩ => ⟨S4x16x4096x128, .f32⟩
  | .hbm, ⟨7, _⟩ => ⟨S4x16x4096x128, .i1⟩
  | .hbm, ⟨8, _⟩ => ⟨S_, .f32⟩
  | .hbm, ⟨9, _⟩ => ⟨S4x16x4096x128, .f32⟩
  | .hbm, ⟨10, _⟩ => ⟨S4x16x4096x128, .f32⟩
  | .hbm, ⟨11, _⟩ => ⟨S_, .f32⟩
  | .hbm, ⟨12, _⟩ => ⟨S4x16x4096x128, .f32⟩
  | .hbm, ⟨13, _⟩ => ⟨S4x16x4096x128, .f32⟩
  | .hbm, ⟨14, _⟩ => ⟨S4x16x4096x128, .f32⟩
  | .hbm, ⟨15, _⟩ => ⟨S4x16x4096x128, .f32⟩
  | .hbm, ⟨16, _⟩ => ⟨S4x16x4096x128, .f32⟩
  | .hbm, ⟨17, _⟩ => ⟨S4x16x4096x1, .f32⟩
  | .hbm, ⟨18, _⟩ => ⟨S_, .f32⟩
  | .hbm, ⟨19, _⟩ => ⟨S4x16x4096x1, .f32⟩
  | .hbm, ⟨20, _⟩ => ⟨S4x16x4096x1, .f32⟩
  | .hbm, ⟨21, _⟩ => ⟨S4x16x4096x128, .f32⟩
  | .hbm, ⟨22, _⟩ => ⟨S4x16x4096x128, .f32⟩
  | .hbm, ⟨23, _⟩ => ⟨S4x16x4096x128, .f32⟩
  | .hbm, ⟨24, _⟩ => ⟨S4x16x128x128, .f32⟩
  | .hbm, ⟨25, _⟩ => ⟨S4x16x128x128, .f32⟩
  | .hbm, ⟨26, _⟩ => ⟨S_, .f32⟩
  | .hbm, ⟨27, _⟩ => ⟨S4x16x128, .f32⟩
  | .hbm, ⟨28, _⟩ => ⟨S4x16x128x1, .f32⟩
  | .hbm, ⟨29, _⟩ => ⟨S4x16x128x1, .f32⟩
  | .hbm, ⟨30, _⟩ => ⟨S_, .f32⟩
  | .hbm, ⟨31, _⟩ => ⟨S4x16x4096x128, .f32⟩
  | .hbm, ⟨32, _⟩ => ⟨S4x16x4096x128, .i1⟩
  | .hbm, ⟨33, _⟩ => ⟨S_, .f32⟩
  | .hbm, ⟨34, _⟩ => ⟨S4x16x4096x128, .f32⟩
  | .hbm, ⟨35, _⟩ => ⟨S4x16x4096x128, .f32⟩
  | .hbm, ⟨36, _⟩ => ⟨S_, .f32⟩
  | .hbm, ⟨37, _⟩ => ⟨S4x16x4096x128, .f32⟩
  | .hbm, ⟨38, _⟩ => ⟨S4x16x4096x128, .f32⟩
  | .hbm, ⟨39, _⟩ => ⟨S4x16x4096x128, .f32⟩
  | .hbm, ⟨40, _⟩ => ⟨S4x16x4096x128, .f32⟩
  | .hbm, ⟨41, _⟩ => ⟨S4x16x4096x128, .f32⟩
  | .hbm, ⟨42, _⟩ => ⟨S4x16x4096x1, .f32⟩
  | .hbm, ⟨43, _⟩ => ⟨S_, .f32⟩
  | .hbm, ⟨44, _⟩ => ⟨S4x16x4096x1, .f32⟩
  | .hbm, ⟨45, _⟩ => ⟨S4x16x4096x1, .f32⟩
  | .hbm, ⟨46, _⟩ => ⟨S4x16x4096x128, .f32⟩
  | .hbm, ⟨47, _⟩ => ⟨S4x16x4096x128, .f32⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S4x16x4096x128 : S_.BroadcastsInDim S4x16x4096x128 (![] : Fin 0 → Fin S4x16x4096x128.rank)
  bcast_S_S4x16x4096x1 : S_.BroadcastsInDim S4x16x4096x1 (![] : Fin 0 → Fin S4x16x4096x1.rank)
  bcast_S4x16x4096x1_S4x16x4096x128_0_1_2_3 : S4x16x4096x1.BroadcastsInDim S4x16x4096x128 (![0, 1, 2, 3] : Fin 4 → Fin S4x16x4096x128.rank)
  reducesTo_S4x16x4096x128_S4x16x128_d2 : S4x16x4096x128.ReducesTo [2] S4x16x128
  h_S_ : 0 < S_.numel
  bcast_S4x16x128_S4x16x128x1_0_1_2 : S4x16x128.BroadcastsInDim S4x16x128x1 (![0, 1, 2] : Fin 3 → Fin S4x16x128x1.rank)
  dot_S4x16x4096x128_S4x16x128x128_S4x16x4096x128_3_2_2_3_01_01_wf : DotDims.WF S4x16x4096x128 S4x16x128x128 S4x16x4096x128 [3] [2] [2] [3] [0, 1] [0, 1]
  dot_S4x16x4096x128_S4x16x128x1_S4x16x4096x1_3_2_2_3_01_01_wf : DotDims.WF S4x16x4096x128 S4x16x128x1 S4x16x4096x1 [3] [2] [2] [3] [0, 1] [0, 1]
  dot_S4x16x4096x128_S4x16x4096x128_S4x16x128x128_2_2_3_3_01_01_wf : DotDims.WF S4x16x4096x128 S4x16x4096x128 S4x16x128x128 [2] [2] [3] [3] [0, 1] [0, 1]

variable [Facts₀]

def dot_S4x16x4096x128_S4x16x128x128_S4x16x4096x128_3_2_2_3_01_01 : DotDims S4x16x4096x128 S4x16x128x128 S4x16x4096x128 where
  lhsContracting := [3]
  rhsContracting := [2]
  lhsNonContracting := [2]
  rhsNonContracting := [3]
  lhsBatch := [0, 1]
  rhsBatch := [0, 1]
  wf := dot_S4x16x4096x128_S4x16x128x128_S4x16x4096x128_3_2_2_3_01_01_wf
def dot_S4x16x4096x128_S4x16x128x1_S4x16x4096x1_3_2_2_3_01_01 : DotDims S4x16x4096x128 S4x16x128x1 S4x16x4096x1 where
  lhsContracting := [3]
  rhsContracting := [2]
  lhsNonContracting := [2]
  rhsNonContracting := [3]
  lhsBatch := [0, 1]
  rhsBatch := [0, 1]
  wf := dot_S4x16x4096x128_S4x16x128x1_S4x16x4096x1_3_2_2_3_01_01_wf
def dot_S4x16x4096x128_S4x16x4096x128_S4x16x128x128_2_2_3_3_01_01 : DotDims S4x16x4096x128 S4x16x4096x128 S4x16x128x128 where
  lhsContracting := [2]
  rhsContracting := [2]
  lhsNonContracting := [3]
  rhsNonContracting := [3]
  lhsBatch := [0, 1]
  rhsBatch := [0, 1]
  wf := dot_S4x16x4096x128_S4x16x4096x128_S4x16x128x128_2_2_3_3_01_01_wf

class Facts : Prop extends Facts₀ where

variable [Facts]
-- ==== Proof.DeltaMemory.lean ====
/-
  The delta-rule memory of linear attention, for one (batch, head) slab, on the extended reals.

  A slab has S = 4096 token rows and D = 128 feature columns. With the feature map φ(x) = x + 1 for x > 0 and
  e^{min(x, 0)} otherwise, and keys K, values V, queries Q (each S × D), a memory matrix M (D × D) and a normaliser
  vector z (D):

    read-out of a row        (φ(X) M)(s, e)   = Σ_d φ(X s d) · M d e
    normaliser of a row      (φ(X) z)(s)      = Σ_d φ(X s d) · z d
    the delta                Δ(s, e)          = V s e − (φ(K) M)(s, e) / ((φ(K) z)(s) + ε)
    the updated memory       M'(d, e)         = M d e + Σ_s φ(K s d) · Δ(s, e)
    the updated normaliser   z'(d)            = z d + Σ_s φ(K s d)
    the retrieval            out(s, e)        = (φ(Q) M')(s, e) / ((φ(Q) z')(s) + ε)

  The whole arrays are [4, 16, …]: 64 independent slabs, addressed either by (batch, head) or, after merging the two
  leading axes, by one slab number 16 · batch + head. Both addressings are given here, and the last section shows that
  they describe the same numbers.
-/
import Idealize.ShloMosaic.PureOps.Ideal
import Idealize.ShloMosaic.Lib.ValueIdx
import Idealize.ShloMosaic.Lib.Pipeline.Value

noncomputable section

namespace Cert.DeltaMemory

open Idealize.ShloMosaic Idealize.ShloMosaic.ValueIdx

/-! ## One slab -/

/-- The feature map φ = elu + 1, spelt with the comparison and the selection the two programs use. -/
def phi (x : EReal) : EReal :=
  Scalar.select (Ideal.cmp .ogt x (Ideal.ofBits .f32 0x00000000#32))
    (x + Ideal.ofBits .f32 0x3F800000#32) (Ideal.exp (min x (Ideal.ofBits .f32 0x00000000#32)))

/-- The ε both programs add to a normaliser: the float nearest 10⁻⁶, read exactly. -/
def eps : EReal := Ideal.ofBits .f32 0x358637BD#32

/-- (φ(X) M)(s, e). -/
def readOut (X : Fin 4096 → Fin 128 → EReal) (M : Fin 128 → Fin 128 → EReal) (s : Fin 4096) (e : Fin 128) : EReal :=
  ∑ d : Fin 128, phi (X s d) * M d e

/-- (φ(X) z)(s). -/
def rowNorm (X : Fin 4096 → Fin 128 → EReal) (z : Fin 128 → EReal) (s : Fin 4096) : EReal :=
  ∑ d : Fin 128, phi (X s d) * z d

/-- Δ(s, e) = V s e − (φ(K) M)(s, e) / ((φ(K) z)(s) + ε). -/
def delta (K V : Fin 4096 → Fin 128 → EReal) (M : Fin 128 → Fin 128 → EReal) (z : Fin 128 → EReal)
    (s : Fin 4096) (e : Fin 128) : EReal :=
  V s e - Ideal.div (readOut K M s e) (rowNorm K z s + eps)

/-- M'(d, e) = M d e + Σ_s φ(K s d) · Δ(s, e). -/
def memNew (K V : Fin 4096 → Fin 128 → EReal) (M : Fin 128 → Fin 128 → EReal) (z : Fin 128 → EReal)
    (d e : Fin 128) : EReal :=
  M d e + ∑ s : Fin 4096, phi (K s d) * delta K V M z s e

/-- z'(d) = z d + Σ_s φ(K s d). -/
def normNew (K : Fin 4096 → Fin 128 → EReal) (z : Fin 128 → EReal) (d : Fin 128) : EReal :=
  z d + ∑ s : Fin 4096, phi (K s d)

/-- out(s, e) = (φ(Q) M')(s, e) / ((φ(Q) z')(s) + ε). -/
def retrieved (Q K V : Fin 4096 → Fin 128 → EReal) (M : Fin 128 → Fin 128 → EReal) (z : Fin 128 → EReal)
    (s : Fin 4096) (e : Fin 128) : EReal :=
  Ideal.div (readOut Q (memNew K V M z) s e) (rowNorm Q (normNew K z) s + eps)

/-! ## The arrays addressed by (batch, head) -/

abbrev Tok4 : Type := (⟨4, ![4, 16, 4096, 128]⟩ : Shape).Idx → EReal
abbrev Mem4 : Type := (⟨4, ![4, 16, 128, 128]⟩ : Shape).Idx → EReal
abbrev Nrm4 : Type := (⟨4, ![4, 16, 128, 1]⟩ : Shape).Idx → EReal

/-- The S × D rows of slab (b, h). -/
def rows4 (X : Tok4) (b : Fin 4) (h : Fin 16) : Fin 4096 → Fin 128 → EReal := fun s d => X (ix4 b h s d)
/-- The D × D matrix of slab (b, h). -/
def mat4 (X : Mem4) (b : Fin 4) (h : Fin 16) : Fin 128 → Fin 128 → EReal := fun d e => X (ix4 b h d e)
/-- The D-vector of slab (b, h), stored as a column. -/
def col4 (X : Nrm4) (b : Fin 4) (h : Fin 16) : Fin 128 → EReal := fun d => X (ix4 b h d (0 : Fin 1))

/-- The retrieval, every slab. -/
def out4 (q k v : Tok4) (M : Mem4) (z : Nrm4) : Tok4 := fun i =>
  retrieved (rows4 q (i 0) (i 1)) (rows4 k (i 0) (i 1)) (rows4 v (i 0) (i 1)) (mat4 M (i 0) (i 1)) (col4 z (i 0) (i 1)) (i 2) (i 3)
/-- The updated memory, every slab. -/
def mem4 (k v : Tok4) (M : Mem4) (z : Nrm4) : Mem4 := fun i =>
  memNew (rows4 k (i 0) (i 1)) (rows4 v (i 0) (i 1)) (mat4 M (i 0) (i 1)) (col4 z (i 0) (i 1)) (i 2) (i 3)
/-- The updated normaliser, every slab. -/
def nrm4 (k : Tok4) (z : Nrm4) : Nrm4 := fun i =>
  normNew (rows4 k (i 0) (i 1)) (col4 z (i 0) (i 1)) (i 2)

theorem out4_ix (q k v : Tok4) (M : Mem4) (z : Nrm4) (b : Fin 4) (h : Fin 16) (s : Fin 4096) (e : Fin 128) :
    out4 q k v M z (ix4 b h s e) = retrieved (rows4 q b h) (rows4 k b h) (rows4 v b h) (mat4 M b h) (col4 z b h) s e := rfl
theorem mem4_ix (k v : Tok4) (M : Mem4) (z : Nrm4) (b : Fin 4) (h : Fin 16) (d e : Fin 128) :
    mem4 k v M z (ix4 b h d e) = memNew (rows4 k b h) (rows4 v b h) (mat4 M b h) (col4 z b h) d e := rfl
theorem nrm4_ix (k : Tok4) (z : Nrm4) (b : Fin 4) (h : Fin 16) (d : Fin 128) (u : Fin 1) :
    nrm4 k z (ix4 b h d u) = normNew (rows4 k b h) (col4 z b h) d := rfl

/-! ## The arrays addressed by one slab number -/

abbrev Tok3 : Type := (⟨3, ![64, 4096, 128]⟩ : Shape).Idx → EReal
abbrev Mem3 : Type := (⟨3, ![64, 128, 128]⟩ : Shape).Idx → EReal
abbrev Nrm3 : Type := (⟨3, ![64, 1, 128]⟩ : Shape).Idx → EReal

/-- The S × D rows of slab t. -/
def rows3 (X : Tok3) (t : Fin 64) : Fin 4096 → Fin 128 → EReal := fun s d => X (ix3 t s d)
/-- The D × D matrix of slab t. -/
def mat3 (X : Mem3) (t : Fin 64) : Fin 128 → Fin 128 → EReal := fun d e => X (ix3 t d e)
/-- The D-vector of slab t, stored as a row. -/
def row3 (X : Nrm3) (t : Fin 64) : Fin 128 → EReal := fun d => X (ix3 t (0 : Fin 1) d)

def out3 (q k v : Tok3) (M : Mem3) (z : Nrm3) : Tok3 := fun i =>
  retrieved (rows3 q (i 0)) (rows3 k (i 0)) (rows3 v (i 0)) (mat3 M (i 0)) (row3 z (i 0)) (i 1) (i 2)
def mem3 (k v : Tok3) (M : Mem3) (z : Nrm3) : Mem3 := fun i =>
  memNew (rows3 k (i 0)) (rows3 v (i 0)) (mat3 M (i 0)) (row3 z (i 0)) (i 1) (i 2)
def nrm3 (k : Tok3) (z : Nrm3) : Nrm3 := fun i =>
  normNew (rows3 k (i 0)) (row3 z (i 0)) (i 2)

theorem out3_ix (q k v : Tok3) (M : Mem3) (z : Nrm3) (t : Fin 64) (s : Fin 4096) (e : Fin 128) :
    out3 q k v M z (ix3 t s e) = retrieved (rows3 q t) (rows3 k t) (rows3 v t) (mat3 M t) (row3 z t) s e := rfl
theorem mem3_ix (k v : Tok3) (M : Mem3) (z : Nrm3) (t : Fin 64) (d e : Fin 128) :
    mem3 k v M z (ix3 t d e) = memNew (rows3 k t) (rows3 v t) (mat3 M t) (row3 z t) d e := rfl
theorem nrm3_ix (k : Tok3) (z : Nrm3) (t : Fin 64) (u : Fin 1) (d : Fin 128) :
    nrm3 k z (ix3 t u d) = normNew (rows3 k t) (row3 z t) d := rfl

end Cert.DeltaMemory

end
-- ==== Proof.RefValue.lean ====
/-
  The reference program, read one element at a time, computes the delta-rule memory of the specification module.

  Its stages, in order (K = key, V = value, Q = query, M = memory, z = normaliser, all sliced per (batch, head) slab):
    stage 7    φ(K), elementwise: x + 1 where x > 0, e^{min(x, 0)} elsewhere;      stage 27 is φ(Q), the same term on the query
    stage 8    (φ(K) M)(s, e) = Σ_d φ(K s d) · M d e                                 the read-out of a key row
    stage 9    (φ(K) z)(s)    = Σ_d φ(K s d) · z d, kept as a column of width one    the normaliser of a key row
    stage 11   stage 9 + ε;   stage 12 repeats that column across the 128 features
    stage 13   stage 8 / stage 12;   stage 14   Δ = V − stage 13
    stage 15   Σ_s φ(K s d) · Δ(s, e);   stage 16   M' = M + stage 15               the updated memory (second result)
    stage 17   0 + Σ_s φ(K s d);   stage 18 stores it as a column;   stage 19   z' = z + stage 18   (third result)
    stage 28   (φ(Q) M')(s, e);   stage 29   (φ(Q) z')(s);   stage 31 adds ε;   stage 32 repeats the column
    stage 33   stage 28 / stage 32                                                   the retrieval (first result)

  Every contraction runs over one axis inside a fixed (batch, head) pair, so at the index (b, h, ·, ·) each stage is the
  slab formula of the specification on slab (b, h). The only arithmetic fact used is that the float word zero is the
  number 0, for the initial value of the sum in stage 17.
-/
import proofs.«113777_j88390426951900_2_alg».proof.Proof.Gen.ReferenceIdeal.Read
import proofs.«113777_j88390426951900_2_alg».proof.Proof.DeltaMemory

noncomputable section

namespace Cert.ReferenceIdeal.RefValue

open Cert.ReferenceIdeal Cert.ReferenceIdeal.Read Cert.DeltaMemory Idealize.ShloMosaic Idealize.ShloMosaic.ValueIdx

/-! ## The feature map, at any index -/

/-- Stage 7 is φ of the key, element by element. -/
theorem keyFeature (x1 : Tok4) (i : (⟨4, ![4, 16, 4096, 128]⟩ : Shape).Idx) :
    val_main_v7 (F := Ideal) x1 i = phi (x1 i) := by
  rw [val_main_v7_apply, val_main_v1_apply, val_main_v3_apply, val_main_v6_apply, val_main_v5_apply,
    val_main_v0_apply, val_main_v2_apply, val_main_v4_apply, val_main_cst_apply, val_main_cst_0_apply,
    val_main_cst_1_apply]
  rfl

/-- Stage 27 is φ of the query, element by element. -/
theorem queryFeature (x0 : Tok4) (i : (⟨4, ![4, 16, 4096, 128]⟩ : Shape).Idx) :
    val_main_v27 (F := Ideal) x0 i = phi (x0 i) := by
  rw [val_main_v27_apply, val_main_v21_apply, val_main_v23_apply, val_main_v26_apply, val_main_v25_apply,
    val_main_v20_apply, val_main_v22_apply, val_main_v24_apply, val_main_cst_4_apply, val_main_cst_5_apply,
    val_main_cst_6_apply]
  rfl

/-! ## Where each stage reads its operands, by coordinates -/

section Indices
variable (b : Fin 4) (h : Fin 16) (s k4096 : Fin 4096) (d e k : Fin 128) (u : Fin 1)

/-- Row s of the left operand of stage 8, column k. -/
theorem lidx8 : lidx_main_v8 (ix4 b h s e) k = ix4 b h s k :=
  funext fun a => Fin.ext (by match a with | ⟨0, _⟩ => rfl | ⟨1, _⟩ => rfl | ⟨2, _⟩ => rfl | ⟨3, _⟩ => rfl)
/-- Row k of the memory, column e. -/
theorem ridx8 : ridx_main_v8 (ix4 b h s e) k = ix4 b h k e :=
  funext fun a => Fin.ext (by match a with | ⟨0, _⟩ => rfl | ⟨1, _⟩ => rfl | ⟨2, _⟩ => rfl | ⟨3, _⟩ => rfl)
theorem lidx9 : lidx_main_v9 (ix4 b h s u) k = ix4 b h s k :=
  funext fun a => Fin.ext (by match a with | ⟨0, _⟩ => rfl | ⟨1, _⟩ => rfl | ⟨2, _⟩ => rfl | ⟨3, _⟩ => rfl)
theorem ridx9 : ridx_main_v9 (ix4 b h s u) k = ix4 b h k u :=
  funext fun a => Fin.ext (by match a with | ⟨0, _⟩ => rfl | ⟨1, _⟩ => rfl | ⟨2, _⟩ => rfl | ⟨3, _⟩ => rfl)
/-- The width-one column is read at its only position. -/
theorem idx12 : idx_main_v12 (ix4 b h s e) = ix4 b h s (0 : Fin 1) :=
  funext fun a => Fin.ext (by match a with | ⟨0, _⟩ => rfl | ⟨1, _⟩ => rfl | ⟨2, _⟩ => rfl | ⟨3, _⟩ => rfl)
/-- Stage 15 contracts the token axis: token k4096, feature d on the left … -/
theorem lidx15 : lidx_main_v15 (ix4 b h d e) k4096 = ix4 b h k4096 d :=
  funext fun a => Fin.ext (by match a with | ⟨0, _⟩ => rfl | ⟨1, _⟩ => rfl | ⟨2, _⟩ => rfl | ⟨3, _⟩ => rfl)
/-- … and token k4096, feature e on the right. -/
theorem ridx15 : ridx_main_v15 (ix4 b h d e) k4096 = ix4 b h k4096 e :=
  funext fun a => Fin.ext (by match a with | ⟨0, _⟩ => rfl | ⟨1, _⟩ => rfl | ⟨2, _⟩ => rfl | ⟨3, _⟩ => rfl)
theorem idx17 : idx_main_v17 (ix3 b h d) k4096 = ix4 b h k4096 d :=
  funext fun a => Fin.ext (by match a with | ⟨0, _⟩ => rfl | ⟨1, _⟩ => rfl | ⟨2, _⟩ => rfl | ⟨3, _⟩ => rfl)
theorem idx18 : idx_main_v18 (ix4 b h d u) = ix3 b h d :=
  funext fun a => Fin.ext (by match a with | ⟨0, _⟩ => rfl | ⟨1, _⟩ => rfl | ⟨2, _⟩ => rfl)
theorem lidx28 : lidx_main_v28 (ix4 b h s e) k = ix4 b h s k :=
  funext fun a => Fin.ext (by match a with | ⟨0, _⟩ => rfl | ⟨1, _⟩ => rfl | ⟨2, _⟩ => rfl | ⟨3, _⟩ => rfl)
theorem ridx28 : ridx_main_v28 (ix4 b h s e) k = ix4 b h k e :=
  funext fun a => Fin.ext (by match a with | ⟨0, _⟩ => rfl | ⟨1, _⟩ => rfl | ⟨2, _⟩ => rfl | ⟨3, _⟩ => rfl)
theorem lidx29 : lidx_main_v29 (ix4 b h s u) k = ix4 b h s k :=
  funext fun a => Fin.ext (by match a with | ⟨0, _⟩ => rfl | ⟨1, _⟩ => rfl | ⟨2, _⟩ => rfl | ⟨3, _⟩ => rfl)
theorem ridx29 : ridx_main_v29 (ix4 b h s u) k = ix4 b h k u :=
  funext fun a => Fin.ext (by match a with | ⟨0, _⟩ => rfl | ⟨1, _⟩ => rfl | ⟨2, _⟩ => rfl | ⟨3, _⟩ => rfl)
theorem idx32 : idx_main_v32 (ix4 b h s e) = ix4 b h s (0 : Fin 1) :=
  funext fun a => Fin.ext (by match a with | ⟨0, _⟩ => rfl | ⟨1, _⟩ => rfl | ⟨2, _⟩ => rfl | ⟨3, _⟩ => rfl)

end Indices

/-! ## The key side: read-out, normaliser, delta -/

/-- Stage 8 is the read-out of key row s of slab (b, h) against that slab's memory. -/
theorem keyReadOut (x1 : Tok4) (x3 : Mem4) (b : Fin 4) (h : Fin 16) (s : Fin 4096) (e : Fin 128) :
    val_main_v8 (F := Ideal) x1 x3 (ix4 b h s e) = readOut (rows4 x1 b h) (mat4 x3 b h) s e := by
  rw [val_main_v8_apply]
  refine Finset.sum_congr rfl fun k _ => ?_
  rw [lidx8, ridx8, keyFeature]
  rfl

/-- Stage 9 is the normaliser of key row s of slab (b, h). -/
theorem keyRowNorm (x1 : Tok4) (x4 : Nrm4) (b : Fin 4) (h : Fin 16) (s : Fin 4096) :
    val_main_v9 (F := Ideal) x1 x4 (ix4 b h s (0 : Fin 1)) = rowNorm (rows4 x1 b h) (col4 x4 b h) s := by
  rw [val_main_v9_apply]
  refine Finset.sum_congr rfl fun k _ => ?_
  rw [lidx9, ridx9, keyFeature]
  rfl

/-- Stage 14 is the delta of slab (b, h). -/
theorem keyDelta (x1 x2 : Tok4) (x3 : Mem4) (x4 : Nrm4) (b : Fin 4) (h : Fin 16) (s : Fin 4096) (e : Fin 128) :
    val_main_v14 (F := Ideal) x1 x2 x3 x4 (ix4 b h s e)
      = delta (rows4 x1 b h) (rows4 x2 b h) (mat4 x3 b h) (col4 x4 b h) s e := by
  rw [val_main_v14_apply, val_main_v13_apply, val_main_v12_apply, idx12, val_main_v11_apply, val_main_v10_apply,
    val_main_cst_2_apply, keyReadOut, keyRowNorm]
  rfl

/-! ## The two updated states, at an index -/

/-- Stage 16 at (b, h, d, e) is the updated memory of slab (b, h). -/
theorem ref_mem_ix (x1 x2 : Tok4) (x3 : Mem4) (x4 : Nrm4) (b : Fin 4) (h : Fin 16) (d e : Fin 128) :
    val_main_v16 (F := Ideal) x1 x2 x3 x4 (ix4 b h d e)
      = memNew (rows4 x1 b h) (rows4 x2 b h) (mat4 x3 b h) (col4 x4 b h) d e := by
  rw [val_main_v16_apply, val_main_v15_apply]
  refine congrArg (x3 (ix4 b h d e) + ·) (Finset.sum_congr rfl fun k _ => ?_)
  rw [lidx15, ridx15, keyFeature, keyDelta]
  rfl

/-- Stage 19 at (b, h, d, 0) is the updated normaliser of slab (b, h); the sum of stage 17 starts from the number 0. -/
theorem ref_nrm_ix (x1 : Tok4) (x4 : Nrm4) (b : Fin 4) (h : Fin 16) (d : Fin 128) :
    val_main_v19 (F := Ideal) x1 x4 (ix4 b h d (0 : Fin 1)) = normNew (rows4 x1 b h) (col4 x4 b h) d := by
  rw [val_main_v19_apply, val_main_v18_apply, idx18, val_main_v17_apply, val_main_cst_3_apply, Ideal.ofBits_def,
    Ideal.ofBits_zero_f32, zero_add]
  refine congrArg (x4 (ix4 b h d (0 : Fin 1)) + ·) (Finset.sum_congr rfl fun k _ => ?_)
  rw [idx17, keyFeature]
  rfl

/-! ## The query side -/

/-- Stage 28 is the read-out of query row s of slab (b, h) against that slab's updated memory. -/
theorem queryReadOut (x0 x1 x2 : Tok4) (x3 : Mem4) (x4 : Nrm4) (b : Fin 4) (h : Fin 16) (s : Fin 4096) (e : Fin 128) :
    val_main_v28 (F := Ideal) x0 x1 x2 x3 x4 (ix4 b h s e)
      = readOut (rows4 x0 b h) (memNew (rows4 x1 b h) (rows4 x2 b h) (mat4 x3 b h) (col4 x4 b h)) s e := by
  rw [val_main_v28_apply]
  refine Finset.sum_congr rfl fun k _ => ?_
  rw [lidx28, ridx28, queryFeature, ref_mem_ix]
  rfl

/-- Stage 29 is the normaliser of query row s of slab (b, h) against that slab's updated normaliser. -/
theorem queryRowNorm (x0 x1 : Tok4) (x4 : Nrm4) (b : Fin 4) (h : Fin 16) (s : Fin 4096) :
    val_main_v29 (F := Ideal) x0 x1 x4 (ix4 b h s (0 : Fin 1))
      = rowNorm (rows4 x0 b h) (normNew (rows4 x1 b h) (col4 x4 b h)) s := by
  rw [val_main_v29_apply]
  refine Finset.sum_congr rfl fun k _ => ?_
  rw [lidx29, ridx29, queryFeature, ref_nrm_ix]
  rfl

/-- Stage 33 at (b, h, s, e) is the retrieval of slab (b, h). -/
theorem ref_out_ix (x0 x1 x2 : Tok4) (x3 : Mem4) (x4 : Nrm4) (b : Fin 4) (h : Fin 16) (s : Fin 4096) (e : Fin 128) :
    val_main_v33 (F := Ideal) x0 x1 x2 x3 x4 (ix4 b h s e)
      = retrieved (rows4 x0 b h) (rows4 x1 b h) (rows4 x2 b h) (mat4 x3 b h) (col4 x4 b h) s e := by
  rw [val_main_v33_apply, val_main_v32_apply, idx32, val_main_v31_apply, val_main_v30_apply, val_main_cst_7_apply,
    queryReadOut, queryRowNorm]
  rfl

/-! ## The three results as whole arrays -/

theorem ref_out (x0 x1 x2 : Tok4) (x3 : Mem4) (x4 : Nrm4) :
    val_main_v33 (F := Ideal) x0 x1 x2 x3 x4 = out4 x0 x1 x2 x3 x4 := by
  funext i
  obtain ⟨b, h, s, e, rfl⟩ : ∃ (b : Fin 4) (h : Fin 16) (s : Fin 4096) (e : Fin 128), i = ix4 b h s e :=
    ⟨i 0, i 1, i 2, i 3, eq_ix4 i⟩
  rw [out4_ix]
  exact ref_out_ix x0 x1 x2 x3 x4 b h s e

theorem ref_mem (x1 x2 : Tok4) (x3 : Mem4) (x4 : Nrm4) :
    val_main_v16 (F := Ideal) x1 x2 x3 x4 = mem4 x1 x2 x3 x4 := by
  funext i
  obtain ⟨b, h, d, e, rfl⟩ : ∃ (b : Fin 4) (h : Fin 16) (d e : Fin 128), i = ix4 b h d e :=
    ⟨i 0, i 1, i 2, i 3, eq_ix4 i⟩
  rw [mem4_ix]
  exact ref_mem_ix x1 x2 x3 x4 b h d e

theorem ref_nrm (x1 : Tok4) (x4 : Nrm4) : val_main_v19 (F := Ideal) x1 x4 = nrm4 x1 x4 := by
  funext i
  obtain ⟨b, h, d, u, rfl⟩ : ∃ (b : Fin 4) (h : Fin 16) (d : Fin 128) (u : Fin 1), i = ix4 b h d u :=
    ⟨i 0, i 1, i 2, i 3, eq_ix4 i⟩
  obtain rfl : u = 0 := Subsingleton.elim _ _
  rw [nrm4_ix]
  exact ref_nrm_ix x1 x4 b h d

end Cert.ReferenceIdeal.RefValue

end
-- ==== Proof.Blocks.lean ====
/-
  One slab's blocks as the kernel's body sees them: a token block [1, 4096, 128] as 4096 rows of 128 features, a memory
  block [1, 128, 128] as a 128 × 128 matrix, a normaliser block [1, 1, 128] as 128 numbers. The leading axis of a block
  has one position; these drop it.
-/
import proofs.«113777_j88390426951900_2_alg».proof.Proof.DeltaMemory

noncomputable section

namespace Cert.DeltaMemory

open Idealize.ShloMosaic Idealize.ShloMosaic.ValueIdx

/-- The 4096 × 128 rows of a token block. -/
def blkRows (x : (⟨3, ![1, 4096, 128]⟩ : Shape).Idx → EReal) : Fin 4096 → Fin 128 → EReal := fun s d => x (ix3 (0 : Fin 1) s d)
/-- The 128 × 128 matrix of a memory block. -/
def blkMat (x : (⟨3, ![1, 128, 128]⟩ : Shape).Idx → EReal) : Fin 128 → Fin 128 → EReal := fun d e => x (ix3 (0 : Fin 1) d e)
/-- The 128 numbers of a normaliser block. -/
def blkRow (x : (⟨3, ![1, 1, 128]⟩ : Shape).Idx → EReal) : Fin 128 → EReal := fun d => x (ix3 (0 : Fin 1) (0 : Fin 1) d)

end Cert.DeltaMemory

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibLeadingAxisDot.lean ====
/-
  The product of a [K, M] matrix with a [K, N] matrix contracted on the FIRST axis of both — the transpose of the left
  operand times the right operand — read at an output index. Independent of any program.

  With no batch axis the contraction index has one coordinate, running over the K shared rows; at the output index
  (p, q) the left operand is read at (k, p) and the right at (k, q). So the contraction's sum over its own index type is
  the sum over k of l (k, p) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a product [K, M] × [K, N] → [M, N] contracted on the leading axis of both operands. -/
abbrev leadDot (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- THE CONTRACTION AS A SUM OVER k: at the output index (p, q) the product's terms are l (k, p) · r (k, q). -/
theorem leadDot_sum {K M N : Nat}
    (wf : DotDims.WF ⟨2, ![K, M]⟩ ⟨2, ![K, N]⟩ ⟨2, ![M, N]⟩ [0] [0] [1] [1] [] [])
    (l : (⟨2, ![K, M]⟩ : Shape).Idx → EReal) (r : (⟨2, ![K, N]⟩ : Shape).Idx → EReal) (p : Fin M) (q : Fin N) :
    ∑ k : (leadDot K M N wf).contr.Idx,
        l ((leadDot K M N wf).lhsIdx (ix2 p q) k) * r ((leadDot K M N wf).rhsIdx (ix2 p q) k)
      = ∑ k : Fin K, l (ix2 k p) * r (ix2 k q) := by
  rw [← Equiv.sum_comp (contrEquiv1 (leadDot K M N wf) K rfl rfl).symm]
  refine Finset.sum_congr rfl fun k _ => ?_
  have hk := contrEquiv1_symm_val (leadDot K M N wf) K rfl rfl k
  have el : (leadDot K M N wf).lhsIdx (ix2 p q) ((contrEquiv1 (leadDot K M N wf) K rfl rfl).symm k) = ix2 k p :=
    funext fun a => Fin.ext (by
      match a with
      | ⟨0, _⟩ => exact ((leadDot K M N wf).lhsIdx_val_of_single rfl (ix2 p q) _).trans hk
      | ⟨1, _⟩ =>
        show ((leadDot K M N wf).lhsIdx (ix2 p q) ((contrEquiv1 (leadDot K M N wf) K rfl rfl).symm k) 1).val = p.val
        unfold DotDims.lhsIdx
        rw [dif_neg (show ¬ (1 : Fin 2) ∈ ([] : List (Fin 2)) from List.not_mem_nil),
          dif_pos (show (1 : Fin 2) ∈ ([1] : List (Fin 2)) from List.mem_singleton.mpr rfl)]
        rfl)
  have er : (leadDot K M N wf).rhsIdx (ix2 p q) ((contrEquiv1 (leadDot K M N wf) K rfl rfl).symm k) = ix2 k q :=
    funext fun a => Fin.ext (by
      match a with
      | ⟨0, _⟩ => exact ((leadDot K M N wf).rhsIdx_val_of_single rfl (ix2 p q) _).trans hk
      | ⟨1, _⟩ =>
        show ((leadDot K M N wf).rhsIdx (ix2 p q) ((contrEquiv1 (leadDot K M N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's product contracted on both leading axes, into a zero accumulator, at (p, q). -/
theorem matmul_zero_lead_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (leadDot K M N wf) prec l r (constant (F := Ideal) ⟨2, ![M, N]⟩ .f32 0x00000000#32) (ix2 p q)
      = ∑ k : Fin K, l (ix2 k p) * r (ix2 k q) := by
  rw [Ideal.matmul_constant_zero_apply]
  exact leadDot_sum wf l r p q

/-- The host's product contracted on both leading axes, at (p, q). -/
theorem dotGeneral_lead_apply {K M N : Nat} {φ₁ φ₂ : FTy}
    (wf : DotDims.WF ⟨2, ![K, M]⟩ ⟨2, ![K, N]⟩ ⟨2, ![M, N]⟩ [0] [0] [1] [1] [] [])
    (prec : Option ContractPrecision) (sched : HostSchedule) (l : FVec Ideal ⟨2, ![K, M]⟩ φ₁) (r : FVec Ideal ⟨2, ![K, N]⟩ φ₂)
    (p : Fin M) (q : Fin N) :
    FloatOps.dotGeneral (leadDot K M N wf) prec sched l r (ix2 p q)
      = ∑ k : Fin K, l (ix2 k p) * r (ix2 k q) := by
  rw [Ideal.dotGeneral_apply]
  exact leadDot_sum wf l r p q

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.Body.lean ====
/-
  What the kernel's body computes from one slab's blocks, entry by entry.

  At a grid point the body sees the slab's key, value and query blocks ([1, 4096, 128] each), its memory block
  ([1, 128, 128]) and its normaliser block ([1, 1, 128]: the 128 numbers as one row). Reading each of its results at an
  index gives the delta-rule formulas of the slab (DeltaMemory): the feature map entrywise; a matrix product into a zero
  accumulator as a sum over the contracted axis; a lane sum as a row sum and a sublane sum as a column sum; a [4096]
  vector of row sums turned into a column and spread across the 128 lanes; a [1, 128] row spread down the rows.
-/
import proofs.«113777_j88390426951900_2_alg».proof.Proof.Gen.KernelIdeal.Frame
import proofs.«113777_j88390426951900_2_alg».proof.Proof.Blocks
import proofs.«113777_j88390426951900_2_alg».proof.Proof.LibPlainDot
import proofs.«113777_j88390426951900_2_alg».proof.Proof.LibLeadingAxisDot
import proofs.«113777_j88390426951900_2_alg».proof.Proof.LibColumnBroadcast
import proofs.«113777_j88390426951900_2_alg».proof.Proof.LibColumnCast
import proofs.«113777_j88390426951900_2_alg».proof.Proof.LibAxisSums
import Idealize.ShloMosaic.Lib.ValueLayout
import Idealize.ShloMosaic.PureOps.Ideal.Laws

noncomputable section

namespace Cert.KernelIdeal.Body

open Cert.KernelIdeal Cert.KernelIdeal.Gen Cert.DeltaMemory Idealize.ShloMosaic Idealize.ShloMosaic.ValueIdx

/-! ## The feature map and the normaliser row -/

/-- The body's feature map of a token block, at (s, d), is φ of the block's entry. -/
theorem featureMap_at (x0 : Vec Ideal S1x4096x128 .f32) (s : Fin 4096) (d : Fin 128) :
    k0_pay4 (F := Ideal) x0 (ix2 s d) = phi (blkRows x0 s d) := by
  have e : shapeCast S4096x128 x0 shapeCasts_S1x4096x128_S4096x128 (ix2 s d) = x0 (ix3 (0 : Fin 1) s d) :=
    shapeCast_1ab_ab_apply x0 _ s d
  show phi (shapeCast S4096x128 x0 shapeCasts_S1x4096x128_S4096x128 (ix2 s d)) = _
  rw [e]; rfl

/-- The normaliser block with its leading unit axis dropped, at (0, d). -/
theorem normRow_at (x4 : Vec Ideal S1x1x128 .f32) (u : Fin 1) (d : Fin 128) :
    k0_pay3 (F := Ideal) x4 (ix2 u d) = blkRow x4 d := by
  obtain rfl : u = 0 := Subsingleton.elim _ _
  exact shapeCast_1ab_ab_apply x4 _ (0 : Fin 1) d

/-! ## The updated normaliser -/

/-- z' of the slab: the normaliser row plus the column sums of the feature map of the keys. -/
theorem normNew_at (x0 : Vec Ideal S1x4096x128 .f32) (x4 : Vec Ideal S1x1x128 .f32) (u : Fin 1) (d : Fin 128) :
    k0_pay6 (F := Ideal) x0 x4 (ix2 u d) = normNew (blkRows x0) (blkRow x4) d := by
  show k0_pay3 (F := Ideal) x4 (ix2 u d)
      + shapeCast S1x128 (multiReduction (F := Ideal) .add [0] S128 (k0_pay4 (F := Ideal) x0) 0x00000000#32
          reduces_S4096x128_S128 (.inl rfl) rfl) shapeCasts_S128_S1x128 (ix2 u d) = _
  rw [normRow_at]
  refine congrArg (blkRow x4 d + ·) ?_
  refine (shapeCast_a_1a_apply _ _ u d).trans ?_
  refine (Cert.Lib.colSum_apply _ _ _ _ _ d).trans ?_
  exact Finset.sum_congr rfl fun s _ => featureMap_at x0 s d

/-! ## A read-out divided by its row's normaliser plus ε -/

/-- The body's phrase, used once for the keys and once for the queries: the product σ · Mm into a zero accumulator, divided
    entrywise by the row sums of σ · zr (zr spread down the rows), plus ε, turned into a column and spread across the lanes. -/
def normalised (σ : FVec Ideal S4096x128 .f32) (Mm : FVec Ideal S128x128 .f32) (zr : FVec Ideal S1x128 .f32) :
    FVec Ideal S4096x128 .f32 :=
  divf (matmul dot_S4096x128_S128x128_S4096x128_1_0_0_1_n_n (some .fp32) σ Mm (constant S4096x128 .f32 0x00000000#32))
    (broadcastTo S4096x128
      (addf (shapeCast S4096x1 (multiReduction .add [1] S4096 (mulf σ (broadcastTo S4096x128 zr broadcasts_S1x128_S4096x128))
          0x00000000#32 reduces_S4096x128_S4096 (.inl rfl) rfl) shapeCasts_S4096_S4096x1)
        (broadcast S4096x1 (Scalar.ofBits .f32 0x358637BD#32)))
      broadcasts_S4096x1_S4096x128)

/-- At (s, e): (Σ_d σ(s, d) · Mm(d, e)) / ((Σ_d σ(s, d) · zr(0, d)) + ε). -/
theorem normalised_at (σ : FVec Ideal S4096x128 .f32) (Mm : FVec Ideal S128x128 .f32) (zr : FVec Ideal S1x128 .f32)
    (s : Fin 4096) (e : Fin 128) :
    normalised σ Mm zr (ix2 s e)
      = Ideal.div (∑ d : Fin 128, σ (ix2 s d) * Mm (ix2 d e)) ((∑ d : Fin 128, σ (ix2 s d) * zr (ix2 (0 : Fin 1) d)) + eps) := by
  unfold normalised
  show Ideal.div _ _ = Ideal.div _ _
  refine congrArg₂ Ideal.div ?_ ?_
  · exact Cert.Lib.matmul_zero_apply _ _ σ Mm s e
  · refine (Cert.Lib.broadcastTo_a1_ab_apply _ _ s e).trans ?_
    show _ + eps = _ + eps
    refine congrArg (· + eps) ?_
    refine (Cert.Lib.shapeCast_a_a1_apply _ _ s (0 : Fin 1)).trans ?_
    refine (Cert.Lib.rowSum_apply _ _ _ _ _ s).trans ?_
    refine Finset.sum_congr rfl fun d _ => ?_
    show σ (ix2 s d) * broadcastTo S4096x128 zr broadcasts_S1x128_S4096x128 (ix2 s d) = _
    rw [broadcastTo_1b_ab_apply]

/-! ## The updated memory and the retrieval -/

/-- M' of the slab: the memory plus, contracted over the token axis, φ(K) against the delta — the value rows minus the
    keys' normalised read-out of the old memory. -/
theorem memNew_at (x0 x1 : Vec Ideal S1x4096x128 .f32) (x3 : Vec Ideal S1x128x128 .f32) (x4 : Vec Ideal S1x1x128 .f32)
    (d e : Fin 128) :
    k0_pay5 (F := Ideal) x0 x1 x3 x4 (ix2 d e) = memNew (blkRows x0) (blkRows x1) (blkMat x3) (blkRow x4) d e := by
  show shapeCast S128x128 x3 shapeCasts_S1x128x128_S128x128 (ix2 d e)
      + matmul dot_S4096x128_S4096x128_S128x128_0_0_1_1_n_n (some .fp32) (k0_pay4 (F := Ideal) x0)
          (subf (shapeCast S4096x128 x1 shapeCasts_S1x4096x128_S4096x128)
            (normalised (k0_pay4 (F := Ideal) x0) (shapeCast S128x128 x3 shapeCasts_S1x128x128_S128x128) (k0_pay3 (F := Ideal) x4)))
          (constant (F := Ideal) S128x128 .f32 0x00000000#32) (ix2 d e) = _
  unfold memNew
  refine congrArg₂ (· + ·) (shapeCast_1ab_ab_apply x3 _ d e) ?_
  refine (Cert.Lib.matmul_zero_lead_apply _ _ _ _ d e).trans ?_
  refine Finset.sum_congr rfl fun s _ => ?_
  refine congrArg₂ (· * ·) (featureMap_at x0 s d) ?_
  show shapeCast S4096x128 x1 shapeCasts_S1x4096x128_S4096x128 (ix2 s e)
      - normalised (k0_pay4 (F := Ideal) x0) (shapeCast S128x128 x3 shapeCasts_S1x128x128_S128x128) (k0_pay3 (F := Ideal) x4) (ix2 s e) = _
  unfold delta readOut rowNorm
  refine congrArg₂ (· - ·) (shapeCast_1ab_ab_apply x1 _ s e) ?_
  rw [normalised_at]
  refine congrArg₂ Ideal.div ?_ (congrArg (· + eps) ?_)
  · exact Finset.sum_congr rfl fun k _ => congrArg₂ (· * ·) (featureMap_at x0 s k) (shapeCast_1ab_ab_apply x3 _ k e)
  · exact Finset.sum_congr rfl fun k _ => congrArg₂ (· * ·) (featureMap_at x0 s k) (normRow_at x4 0 k)

/-- The retrieval of the slab: the queries' read-out of the updated memory, normalised by the updated normaliser. -/
theorem retrieved_at (x0 x1 x2 : Vec Ideal S1x4096x128 .f32) (x3 : Vec Ideal S1x128x128 .f32) (x4 : Vec Ideal S1x1x128 .f32)
    (u : Fin 1) (s : Fin 4096) (e : Fin 128) :
    k0_pay2 (F := Ideal) (k0_pay5 (F := Ideal) x0 x1 x3 x4) (k0_pay6 (F := Ideal) x0 x4) x2 (ix3 u s e)
      = retrieved (blkRows x2) (blkRows x0) (blkRows x1) (blkMat x3) (blkRow x4) s e := by
  show shapeCast S1x4096x128
      (normalised (k0_pay4 (F := Ideal) x2) (k0_pay5 (F := Ideal) x0 x1 x3 x4) (k0_pay6 (F := Ideal) x0 x4))
      shapeCasts_S4096x128_S1x4096x128 (ix3 u s e) = _
  refine (shapeCast_ab_1ab_apply _ _ u s e).trans ?_
  rw [normalised_at]
  unfold retrieved readOut rowNorm
  refine congrArg₂ Ideal.div ?_ (congrArg (· + eps) ?_)
  · exact Finset.sum_congr rfl fun k _ => congrArg₂ (· * ·) (featureMap_at x2 s k) (memNew_at x0 x1 x3 x4 k e)
  · exact Finset.sum_congr rfl fun k _ => congrArg₂ (· * ·) (featureMap_at x2 s k) (normNew_at x0 x4 0 k)

/-! ## What the body leaves in each output block -/

theorem origin3 : (![0, 0, 0] : Fin 3 → Nat) = fun _ => 0 := funext fun a => by fin_cases a <;> rfl

/-- The retrieval block. -/
theorem out5_at (x0 x1 x2 : Vec Ideal S1x4096x128 .f32) (x3 : Vec Ideal S1x128x128 .f32) (x4 : Vec Ideal S1x1x128 .f32)
    (u : Fin 1) (s : Fin 4096) (e : Fin 128) :
    out0_5 (F := Ideal) x0 x1 x2 x3 x4 (ix3 u s e)
      = retrieved (blkRows x2) (blkRows x0) (blkRows x1) (blkMat x3) (blkRow x4) s e := by
  unfold out0_5
  rw [View.canon_unit_zero origin3]
  simp only [View.ld_unit_zero (S := S1x4096x128) origin3, View.ld_unit_zero (S := S1x128x128) origin3,
    View.ld_unit_zero (S := S1x1x128) origin3]
  exact retrieved_at x0 x1 x2 x3 x4 u s e

/-- The updated-memory block. -/
theorem out6_at (x0 x1 x2 : Vec Ideal S1x4096x128 .f32) (x3 : Vec Ideal S1x128x128 .f32) (x4 : Vec Ideal S1x1x128 .f32)
    (u : Fin 1) (d e : Fin 128) :
    out0_6 (F := Ideal) x0 x1 x2 x3 x4 (ix3 u d e) = memNew (blkRows x0) (blkRows x1) (blkMat x3) (blkRow x4) d e := by
  unfold out0_6
  rw [View.canon_unit_zero origin3]
  simp only [View.ld_unit_zero (S := S1x4096x128) origin3, View.ld_unit_zero (S := S1x128x128) origin3,
    View.ld_unit_zero (S := S1x1x128) origin3]
  show shapeCast S1x128x128 (k0_pay5 (F := Ideal) x0 x1 x3 x4) shapeCasts_S128x128_S1x128x128 (ix3 u d e) = _
  exact (shapeCast_ab_1ab_apply _ _ u d e).trans (memNew_at x0 x1 x3 x4 d e)

/-- The updated-normaliser block. -/
theorem out7_at (x0 x1 x2 : Vec Ideal S1x4096x128 .f32) (x3 : Vec Ideal S1x128x128 .f32) (x4 : Vec Ideal S1x1x128 .f32)
    (u u' : Fin 1) (d : Fin 128) :
    out0_7 (F := Ideal) x0 x1 x2 x3 x4 (ix3 u u' d) = normNew (blkRows x0) (blkRow x4) d := by
  unfold out0_7
  rw [View.canon_unit_zero origin3]
  simp only [View.ld_unit_zero (S := S1x4096x128) origin3, View.ld_unit_zero (S := S1x1x128) origin3]
  show shapeCast S1x1x128 (k0_pay6 (F := Ideal) x0 x4) shapeCasts_S1x128_S1x1x128 (ix3 u u' d) = _
  exact (shapeCast_ab_1ab_apply _ _ u u' d).trans (normNew_at x0 x4 u' d)

end Cert.KernelIdeal.Body

end
-- ==== Proof.Regroup.lean ====
/-
  Merging the (batch, head) axes into one slab number and splitting them again.

  A [4, 16, …] array and the [64, …] array with the same row-major order hold the same numbers: entry (b, h, …) of the
  first is entry (16 · b + h, …) of the second. So the slab that the merged array calls t = 16 · b + h is the slab
  (b, h) of the original, for the token arrays, the memory matrices and the normaliser vectors alike (a [128, 1] column
  and a [1, 128] row list the same 128 numbers in the same order). Since each slab's update and retrieval depend on
  that slab alone, computing them on the merged arrays and splitting the result gives the (batch, head) description.
-/
import proofs.«113777_j88390426951900_2_alg».proof.Proof.DeltaMemory

noncomputable section

namespace Cert.DeltaMemory

open Idealize.ShloMosaic Idealize.ShloMosaic.ValueIdx

/-- The slab number of (b, h). -/
def slabOf (b : Fin 4) (h : Fin 16) : Fin 64 := ⟨b.val * 16 + h.val, by have := b.isLt; have := h.isLt; omega⟩

theorem rows_merge (X : Tok4) (hc : (⟨4, ![4, 16, 4096, 128]⟩ : Shape).ShapeCasts ⟨3, ![64, 4096, 128]⟩) (b : Fin 4) (h : Fin 16) :
    rows3 (shapeCast ⟨3, ![64, 4096, 128]⟩ X hc) (slabOf b h) = rows4 X b h := by
  funext s d
  show shapeCast ⟨3, ![64, 4096, 128]⟩ X hc (ix3 (slabOf b h) s d) = X (ix4 b h s d)
  refine shapeCast_apply X hc _ _ ?_
  rw [Shape.rowMajor_val_four, Shape.rowMajor_val_three]
  show ((b.val * 16 + h.val) * 4096 + s.val) * 128 + d.val = ((b.val * 16 + h.val) * 4096 + s.val) * 128 + d.val
  rfl

theorem mat_merge (X : Mem4) (hc : (⟨4, ![4, 16, 128, 128]⟩ : Shape).ShapeCasts ⟨3, ![64, 128, 128]⟩) (b : Fin 4) (h : Fin 16) :
    mat3 (shapeCast ⟨3, ![64, 128, 128]⟩ X hc) (slabOf b h) = mat4 X b h := by
  funext d e
  show shapeCast ⟨3, ![64, 128, 128]⟩ X hc (ix3 (slabOf b h) d e) = X (ix4 b h d e)
  refine shapeCast_apply X hc _ _ ?_
  rw [Shape.rowMajor_val_four, Shape.rowMajor_val_three]
  show ((b.val * 16 + h.val) * 128 + d.val) * 128 + e.val = ((b.val * 16 + h.val) * 128 + d.val) * 128 + e.val
  rfl

theorem col_merge (X : Nrm4) (hc : (⟨4, ![4, 16, 128, 1]⟩ : Shape).ShapeCasts ⟨3, ![64, 1, 128]⟩) (b : Fin 4) (h : Fin 16) :
    row3 (shapeCast ⟨3, ![64, 1, 128]⟩ X hc) (slabOf b h) = col4 X b h := by
  funext d
  show shapeCast ⟨3, ![64, 1, 128]⟩ X hc (ix3 (slabOf b h) (0 : Fin 1) d) = X (ix4 b h d (0 : Fin 1))
  refine shapeCast_apply X hc _ _ ?_
  rw [Shape.rowMajor_val_four, Shape.rowMajor_val_three]
  show ((b.val * 16 + h.val) * 128 + d.val) * 1 + 0 = ((b.val * 16 + h.val) * 1 + 0) * 128 + d.val
  omega

/-- The retrieval computed slab by slab on the merged arrays, split again, is the retrieval by (batch, head). -/
theorem out_split (q k v : Tok4) (M : Mem4) (z : Nrm4)
    (hT : (⟨4, ![4, 16, 4096, 128]⟩ : Shape).ShapeCasts ⟨3, ![64, 4096, 128]⟩)
    (hM : (⟨4, ![4, 16, 128, 128]⟩ : Shape).ShapeCasts ⟨3, ![64, 128, 128]⟩)
    (hZ : (⟨4, ![4, 16, 128, 1]⟩ : Shape).ShapeCasts ⟨3, ![64, 1, 128]⟩)
    (hT' : (⟨3, ![64, 4096, 128]⟩ : Shape).ShapeCasts ⟨4, ![4, 16, 4096, 128]⟩) :
    shapeCast ⟨4, ![4, 16, 4096, 128]⟩
        (out3 (shapeCast ⟨3, ![64, 4096, 128]⟩ q hT) (shapeCast ⟨3, ![64, 4096, 128]⟩ k hT) (shapeCast ⟨3, ![64, 4096, 128]⟩ v hT)
          (shapeCast ⟨3, ![64, 128, 128]⟩ M hM) (shapeCast ⟨3, ![64, 1, 128]⟩ z hZ)) hT'
      = out4 q k v M z := by
  funext i
  obtain ⟨b, h, s, e, rfl⟩ : ∃ (b : Fin 4) (h : Fin 16) (s : Fin 4096) (e : Fin 128), i = ix4 b h s e :=
    ⟨i 0, i 1, i 2, i 3, eq_ix4 i⟩
  refine (shapeCast_apply _ hT' (ix4 b h s e) (ix3 (slabOf b h) s e) ?_).trans ?_
  · rw [Shape.rowMajor_val_three, Shape.rowMajor_val_four]
    show ((b.val * 16 + h.val) * 4096 + s.val) * 128 + e.val = ((b.val * 16 + h.val) * 4096 + s.val) * 128 + e.val
    rfl
  · rw [out3_ix, out4_ix, rows_merge q hT b h, rows_merge k hT b h, rows_merge v hT b h, mat_merge M hM b h, col_merge z hZ b h]

/-- The same for the updated memory. -/
theorem mem_split (k v : Tok4) (M : Mem4) (z : Nrm4)
    (hT : (⟨4, ![4, 16, 4096, 128]⟩ : Shape).ShapeCasts ⟨3, ![64, 4096, 128]⟩)
    (hM : (⟨4, ![4, 16, 128, 128]⟩ : Shape).ShapeCasts ⟨3, ![64, 128, 128]⟩)
    (hZ : (⟨4, ![4, 16, 128, 1]⟩ : Shape).ShapeCasts ⟨3, ![64, 1, 128]⟩)
    (hM' : (⟨3, ![64, 128, 128]⟩ : Shape).ShapeCasts ⟨4, ![4, 16, 128, 128]⟩) :
    shapeCast ⟨4, ![4, 16, 128, 128]⟩
        (mem3 (shapeCast ⟨3, ![64, 4096, 128]⟩ k hT) (shapeCast ⟨3, ![64, 4096, 128]⟩ v hT)
          (shapeCast ⟨3, ![64, 128, 128]⟩ M hM) (shapeCast ⟨3, ![64, 1, 128]⟩ z hZ)) hM'
      = mem4 k v M z := by
  funext i
  obtain ⟨b, h, d, e, rfl⟩ : ∃ (b : Fin 4) (h : Fin 16) (d : Fin 128) (e : Fin 128), i = ix4 b h d e :=
    ⟨i 0, i 1, i 2, i 3, eq_ix4 i⟩
  refine (shapeCast_apply _ hM' (ix4 b h d e) (ix3 (slabOf b h) d e) ?_).trans ?_
  · rw [Shape.rowMajor_val_three, Shape.rowMajor_val_four]
    show ((b.val * 16 + h.val) * 128 + d.val) * 128 + e.val = ((b.val * 16 + h.val) * 128 + d.val) * 128 + e.val
    rfl
  · rw [mem3_ix, mem4_ix, rows_merge k hT b h, rows_merge v hT b h, mat_merge M hM b h, col_merge z hZ b h]

/-- The same for the updated normaliser: a [1, 128] row per slab, split into a [128, 1] column per (batch, head). -/
theorem nrm_split (k : Tok4) (z : Nrm4)
    (hT : (⟨4, ![4, 16, 4096, 128]⟩ : Shape).ShapeCasts ⟨3, ![64, 4096, 128]⟩)
    (hZ : (⟨4, ![4, 16, 128, 1]⟩ : Shape).ShapeCasts ⟨3, ![64, 1, 128]⟩)
    (hZ' : (⟨3, ![64, 1, 128]⟩ : Shape).ShapeCasts ⟨4, ![4, 16, 128, 1]⟩) :
    shapeCast ⟨4, ![4, 16, 128, 1]⟩
        (nrm3 (shapeCast ⟨3, ![64, 4096, 128]⟩ k hT) (shapeCast ⟨3, ![64, 1, 128]⟩ z hZ)) hZ'
      = nrm4 k z := by
  funext i
  obtain ⟨b, h, d, u, rfl⟩ : ∃ (b : Fin 4) (h : Fin 16) (d : Fin 128) (u : Fin 1), i = ix4 b h d u :=
    ⟨i 0, i 1, i 2, i 3, eq_ix4 i⟩
  have hu : u.val = 0 := by omega
  refine (shapeCast_apply _ hZ' (ix4 b h d u) (ix3 (slabOf b h) (0 : Fin 1) d) ?_).trans ?_
  · rw [Shape.rowMajor_val_three, Shape.rowMajor_val_four]
    show ((b.val * 16 + h.val) * 1 + 0) * 128 + d.val = ((b.val * 16 + h.val) * 128 + d.val) * 1 + u.val
    omega
  · rw [nrm3_ix, nrm4_ix, rows_merge k hT b h, col_merge z hZ b h]

end Cert.DeltaMemory

end
-- ==== Proof.KernelValue.lean ====
/-
  The kernel's three result arrays as whole-array functions of its five arguments.

  The program merges (batch, head) into 64 slabs by five reshapes, runs its body once per slab — grid point t fetches
  block t of each merged input (slab t's keys, values, queries, memory, normaliser) and writes back block t of each of
  its three outputs —, and splits the leading axis of each output again by three reshapes.

  Block t of an input, read inside the body, is slab t of the merged array; so what point t writes back is, entry by
  entry, the slab formula of slab t (Body), which is block t of ONE function of the merged arrays (out3, mem3, nrm3 of
  DeltaMemory). The 64 blocks tile each output array — entry (t, ·, ·) lies in block t —, so after the run each output
  array IS that function. The merged inputs are the reshaped arguments and the results the reshaped outputs, and
  regrouping the leading axes moves no number (Regroup): the results are out4, mem4, nrm4 of the arguments.
-/
import proofs.«113777_j88390426951900_2_alg».proof.Proof.Gen.KernelIdeal.Frame
import proofs.«113777_j88390426951900_2_alg».proof.Proof.Body
import proofs.«113777_j88390426951900_2_alg».proof.Proof.Regroup
import Idealize.ShloMosaic.Lib.Pipeline.Value
import Idealize.ShloMosaic.Lib.StableHlo.Run

noncomputable section

namespace Cert.KernelIdeal.KernelValue

open Cert.KernelIdeal Cert.KernelIdeal.Gen Cert.KernelIdeal.Body Cert.DeltaMemory
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## Grid point t handles slab t -/

/-- The slab a grid point handles: its own number. -/
def slab (t : Fin cfg0.N) : Fin 64 := ⟨t.val, by have h : t.val < grid0.N := t.isLt; rw [N_0] at h; exact h⟩

/-- Every window's block index at point t is (t, 0, 0): decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-! ## An input block, read inside the body, is a slab of the merged array -/

/-- The key block at point t is the rows of slab t of the merged keys. -/
theorem read0 (c : Dev nD) (t : Fin cfg0.N) : blkRows (iblk m c 0 t) = rows3 (V m c main_v1) (slab t) := by
  funext s d
  show V m c main_v1 (((cfg0.win 0).blk t).view.emb (ix3 (0 : Fin 1) s d)) = V m c main_v1 (ix3 (slab t) s d)
  obtain ⟨e0, e1, e2⟩ := (idx_facts t).1
  refine congrArg (V m c main_v1) (funext fun a => Fin.ext ?_)
  match a with
  | ⟨0, _⟩ => show win0_0.index t (0 : Fin 3) * 1 + 1 * 0 = t.val; omega
  | ⟨1, _⟩ => show win0_0.index t (1 : Fin 3) * 4096 + 1 * s.val = s.val; omega
  | ⟨2, _⟩ => show win0_0.index t (2 : Fin 3) * 128 + 1 * d.val = d.val; omega

/-- The value block at point t is the rows of slab t of the merged values. -/
theorem read1 (c : Dev nD) (t : Fin cfg0.N) : blkRows (iblk m c 1 t) = rows3 (V m c main_v2) (slab t) := by
  funext s d
  show V m c main_v2 (((cfg0.win 1).blk t).view.emb (ix3 (0 : Fin 1) s d)) = V m c main_v2 (ix3 (slab t) s d)
  obtain ⟨e0, e1, e2⟩ := (idx_facts t).2.1
  refine congrArg (V m c main_v2) (funext fun a => Fin.ext ?_)
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 128 + 1 * d.val = d.val; omega

/-- The query block at point t is the rows of slab t of the merged queries. -/
theorem read2 (c : Dev nD) (t : Fin cfg0.N) : blkRows (iblk m c 2 t) = rows3 (V m c main_v0) (slab t) := by
  funext s d
  show V m c main_v0 (((cfg0.win 2).blk t).view.emb (ix3 (0 : Fin 1) s d)) = V m c main_v0 (ix3 (slab t) s d)
  obtain ⟨e0, e1, e2⟩ := (idx_facts t).2.2.1
  refine congrArg (V m c main_v0) (funext fun a => Fin.ext ?_)
  match a with
  | ⟨0, _⟩ => show win0_2.index t (0 : Fin 3) * 1 + 1 * 0 = t.val; omega
  | ⟨1, _⟩ => show win0_2.index t (1 : Fin 3) * 4096 + 1 * s.val = s.val; omega
  | ⟨2, _⟩ => show win0_2.index t (2 : Fin 3) * 128 + 1 * d.val = d.val; omega

/-- The memory block at point t is the matrix of slab t of the merged memories. -/
theorem read3 (c : Dev nD) (t : Fin cfg0.N) : blkMat (iblk m c 3 t) = mat3 (V m c main_v3) (slab t) := by
  funext d e
  show V m c main_v3 (((cfg0.win 3).blk t).view.emb (ix3 (0 : Fin 1) d e)) = V m c main_v3 (ix3 (slab t) d e)
  obtain ⟨e0, e1, e2⟩ := (idx_facts t).2.2.2.1
  refine congrArg (V m c main_v3) (funext fun a => Fin.ext ?_)
  match a with
  | ⟨0, _⟩ => show win0_3.index t (0 : Fin 3) * 1 + 1 * 0 = t.val; omega
  | ⟨1, _⟩ => show win0_3.index t (1 : Fin 3) * 128 + 1 * d.val = d.val; omega
  | ⟨2, _⟩ => show win0_3.index t (2 : Fin 3) * 128 + 1 * e.val = e.val; omega

/-- The normaliser block at point t is the 128 numbers of slab t of the merged normalisers. -/
theorem read4 (c : Dev nD) (t : Fin cfg0.N) : blkRow (iblk m c 4 t) = row3 (V m c main_v4) (slab t) := by
  funext d
  show V m c main_v4 (((cfg0.win 4).blk t).view.emb (ix3 (0 : Fin 1) (0 : Fin 1) d)) = V m c main_v4 (ix3 (slab t) (0 : Fin 1) d)
  obtain ⟨e0, e1, e2⟩ := (idx_facts t).2.2.2.2.1
  refine congrArg (V m c main_v4) (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 128 + 1 * d.val = d.val; omega

/-! ## The retrieval array (output window 5) -/

/-- What point t writes back is block t of the retrieval of the merged arrays. -/
theorem flushed5_eq (c : Dev nD) (t : Fin cfg0.N) :
    (dats m 0 c).flushed 5 t = ((cfg0.win 5).blk t).view.read (Elt Ideal)
      (out3 (V m c main_v0) (V m c main_v1) (V m c main_v2) (V m c main_v3) (V m c main_v4)) := by
  show (cfg0.win 5).cut (grid0.coords t) ((dats m 0 c).after 5 t) = _
  rw [after0_5]
  funext y
  obtain ⟨u, s, e, rfl⟩ : ∃ (u : Fin 1) (s : Fin 4096) (e : Fin 128), y = ix3 u s e := ⟨y 0, y 1, y 2, eq_ix3 y⟩
  show out0_5 (iblk m c 0 t) (iblk m c 1 t) (iblk m c 2 t) (iblk m c 3 t) (iblk m c 4 t) (ix3 u s e)
    = out3 (V m c main_v0) (V m c main_v1) (V m c main_v2) (V m c main_v3) (V m c main_v4) (((cfg0.win 5).blk t).view.emb (ix3 u s e))
  rw [out5_at, read0, read1, read2, read3, read4]
  have hu : u.val = 0 := by omega
  obtain ⟨e0, e1, e2⟩ := (idx_facts t).2.2.2.2.2.1
  have hemb : ((cfg0.win 5).blk t).view.emb (ix3 u s e) = ix3 (slab t) s e := funext fun a => Fin.ext (by
    match a with
    | ⟨0, _⟩ => show win0_5.index t (0 : Fin 3) * 1 + 1 * u.val = t.val; omega
    | ⟨1, _⟩ => show win0_5.index t (1 : Fin 3) * 4096 + 1 * s.val = s.val; omega
    | ⟨2, _⟩ => show win0_5.index t (2 : Fin 3) * 128 + 1 * e.val = e.val; omega)
  rw [hemb, out3_ix]

/-- An index lies in point t's block iff every coordinate is in the block's range on its axis. -/
theorem mem_blk5 (t : Fin cfg0.N) (i : S64x4096x128.Idx) :
    i ∈ ((cfg0.win 5).blk t).view.set ↔ ∀ a : Fin 3, win0_5.index t a * S1x4096x128.size a ≤ (i a).val ∧ (i a).val < win0_5.index t a * S1x4096x128.size a + S1x4096x128.size a := by
  show i ∈ ((View.whole main_v5_0).slice (win0_5.rect t)).set ↔ _
  rw [View.set_slice_whole, Rect.mem_set_unit]
  exact Iff.rfl

/-- Entry (t, ·, ·) lies in the block point t writes back: the 64 blocks cover the array. -/
theorem cover5 (i : S64x4096x128.Idx) : ∃ t : Fin cfg0.N, (cfg0.win 5).flush t = true ∧ i ∈ ((cfg0.win 5).blk t).view.set := by
  have hi0 : (i 0).val < 64 := (i 0).isLt
  have hi1 : (i 1).val < 4096 := (i 1).isLt
  have hi2 : (i 2).val < 128 := (i 2).isLt
  let t : Fin cfg0.N := ⟨(i 0).val, by show (i 0).val < grid0.N; rw [N_0]; exact hi0⟩
  obtain ⟨e0, e1, e2⟩ := (idx_facts t).2.2.2.2.2.1
  have ht : t.val = (i 0).val := rfl
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 128 ≤ (i 2).val ∧ (i 2).val < win0_5.index t (2 : Fin 3) * 128 + 128; omega

/-- After the run the merged retrieval array is the retrieval of the merged inputs, slab by slab. -/
theorem final5 (c : Dev nD) :
    (dats m 0 c).arrAt 5 cfg0.N = out3 (V m c main_v0) (V m c main_v1) (V m c main_v2) (V m c main_v3) (V m c main_v4) :=
  (dats m 0 c).arrAt_eq_of_cover 5 _ (fun t _ => flushed5_eq m c t) cover5

/-! ## The updated-memory array (output window 6) -/

/-- What point t writes back is block t of the updated memory of the merged arrays. -/
theorem flushed6_eq (c : Dev nD) (t : Fin cfg0.N) :
    (dats m 0 c).flushed 6 t = ((cfg0.win 6).blk t).view.read (Elt Ideal)
      (mem3 (V m c main_v1) (V m c main_v2) (V m c main_v3) (V m c main_v4)) := by
  show (cfg0.win 6).cut (grid0.coords t) ((dats m 0 c).after 6 t) = _
  rw [after0_6]
  funext y
  obtain ⟨u, d, e, rfl⟩ : ∃ (u : Fin 1) (d e : Fin 128), y = ix3 u d e := ⟨y 0, y 1, y 2, eq_ix3 y⟩
  show out0_6 (iblk m c 0 t) (iblk m c 1 t) (iblk m c 2 t) (iblk m c 3 t) (iblk m c 4 t) (ix3 u d e)
    = mem3 (V m c main_v1) (V m c main_v2) (V m c main_v3) (V m c main_v4) (((cfg0.win 6).blk t).view.emb (ix3 u d e))
  rw [out6_at, read0, read1, read3, read4]
  have hu : u.val = 0 := by omega
  obtain ⟨e0, e1, e2⟩ := (idx_facts t).2.2.2.2.2.2.1
  have hemb : ((cfg0.win 6).blk t).view.emb (ix3 u d e) = ix3 (slab t) d e := funext fun a => Fin.ext (by
    match a with
    | ⟨0, _⟩ => show win0_6.index t (0 : Fin 3) * 1 + 1 * u.val = t.val; omega
    | ⟨1, _⟩ => show win0_6.index t (1 : Fin 3) * 128 + 1 * d.val = d.val; omega
    | ⟨2, _⟩ => show win0_6.index t (2 : Fin 3) * 128 + 1 * e.val = e.val; omega)
  rw [hemb, mem3_ix]

theorem mem_blk6 (t : Fin cfg0.N) (i : S64x128x128.Idx) :
    i ∈ ((cfg0.win 6).blk t).view.set ↔ ∀ a : Fin 3, win0_6.index t a * S1x128x128.size a ≤ (i a).val ∧ (i a).val < win0_6.index t a * S1x128x128.size a + S1x128x128.size a := by
  show i ∈ ((View.whole main_v5_1).slice (win0_6.rect t)).set ↔ _
  rw [View.set_slice_whole, Rect.mem_set_unit]
  exact Iff.rfl

theorem cover6 (i : S64x128x128.Idx) : ∃ t : Fin cfg0.N, (cfg0.win 6).flush t = true ∧ i ∈ ((cfg0.win 6).blk t).view.set := by
  have hi0 : (i 0).val < 64 := (i 0).isLt
  have hi1 : (i 1).val < 128 := (i 1).isLt
  have hi2 : (i 2).val < 128 := (i 2).isLt
  let t : Fin cfg0.N := ⟨(i 0).val, by show (i 0).val < grid0.N; rw [N_0]; exact hi0⟩
  obtain ⟨e0, e1, e2⟩ := (idx_facts t).2.2.2.2.2.2.1
  have ht : t.val = (i 0).val := rfl
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 128 ≤ (i 2).val ∧ (i 2).val < win0_6.index t (2 : Fin 3) * 128 + 128; omega

/-- After the run the merged memory array is the updated memory of the merged inputs, slab by slab. -/
theorem final6 (c : Dev nD) :
    (dats m 0 c).arrAt 6 cfg0.N = mem3 (V m c main_v1) (V m c main_v2) (V m c main_v3) (V m c main_v4) :=
  (dats m 0 c).arrAt_eq_of_cover 6 _ (fun t _ => flushed6_eq m c t) cover6

/-! ## The updated-normaliser array (output window 7) -/

/-- What point t writes back is block t of the updated normaliser of the merged arrays. -/
theorem flushed7_eq (c : Dev nD) (t : Fin cfg0.N) :
    (dats m 0 c).flushed 7 t = ((cfg0.win 7).blk t).view.read (Elt Ideal) (nrm3 (V m c main_v1) (V m c main_v4)) := by
  show (cfg0.win 7).cut (grid0.coords t) ((dats m 0 c).after 7 t) = _
  rw [after0_7]
  funext y
  obtain ⟨u, u', d, rfl⟩ : ∃ (u u' : Fin 1) (d : Fin 128), y = ix3 u u' d := ⟨y 0, y 1, y 2, eq_ix3 y⟩
  show out0_7 (iblk m c 0 t) (iblk m c 1 t) (iblk m c 2 t) (iblk m c 3 t) (iblk m c 4 t) (ix3 u u' d)
    = nrm3 (V m c main_v1) (V m c main_v4) (((cfg0.win 7).blk t).view.emb (ix3 u u' d))
  rw [out7_at, read0, read4]
  have hu : u.val = 0 := by omega
  obtain ⟨e0, e1, e2⟩ := (idx_facts t).2.2.2.2.2.2.2
  have hemb : ((cfg0.win 7).blk t).view.emb (ix3 u u' d) = ix3 (slab t) u' d := funext fun a => Fin.ext (by
    match a with
    | ⟨0, _⟩ => show win0_7.index t (0 : Fin 3) * 1 + 1 * u.val = t.val; omega
    | ⟨1, _⟩ => show win0_7.index t (1 : Fin 3) * 1 + 1 * u'.val = u'.val; omega
    | ⟨2, _⟩ => show win0_7.index t (2 : Fin 3) * 128 + 1 * d.val = d.val; omega)
  rw [hemb, nrm3_ix]

theorem mem_blk7 (t : Fin cfg0.N) (i : S64x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v5_2).slice (win0_7.rect t)).set ↔ _
  rw [View.set_slice_whole, Rect.mem_set_unit]
  exact Iff.rfl

theorem cover7 (i : S64x1x128.Idx) : ∃ t : Fin cfg0.N, (cfg0.win 7).flush t = true ∧ i ∈ ((cfg0.win 7).blk t).view.set := by
  have hi0 : (i 0).val < 64 := (i 0).isLt
  have hi1 : (i 1).val < 1 := (i 1).isLt
  have hi2 : (i 2).val < 128 := (i 2).isLt
  let t : Fin cfg0.N := ⟨(i 0).val, by show (i 0).val < grid0.N; rw [N_0]; exact hi0⟩
  obtain ⟨e0, e1, e2⟩ := (idx_facts t).2.2.2.2.2.2.2
  have ht : t.val = (i 0).val := rfl
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 128 ≤ (i 2).val ∧ (i 2).val < win0_7.index t (2 : Fin 3) * 128 + 128; omega

/-- After the run the merged normaliser array is the updated normaliser of the merged inputs, slab by slab. -/
theorem final7 (c : Dev nD) : (dats m 0 c).arrAt 7 cfg0.N = nrm3 (V m c main_v1) (V m c main_v4) :=
  (dats m 0 c).arrAt_eq_of_cover 7 _ (fun t _ => flushed7_eq m c t) cover7

/-! ## The merged inputs are the reshaped arguments -/

theorem V_queries (c : Dev nD) : (V m c main_v0 : S64x4096x128.Idx → EReal)
    = shapeCast S64x4096x128 (m ((c.tc : Thread nD τ).loc main_arg0)) shapeCasts_S4x16x4096x128_S64x4096x128 := by
  show StableHlo.after hostOps0 (fun b => m (c, b)) (Proc.devRef .tc main_v0) = _
  after_results
  rfl

theorem V_keys (c : Dev nD) : (V m c main_v1 : S64x4096x128.Idx → EReal)
    = shapeCast S64x4096x128 (m ((c.tc : Thread nD τ).loc main_arg1)) shapeCasts_S4x16x4096x128_S64x4096x128 := by
  show StableHlo.after hostOps0 (fun b => m (c, b)) (Proc.devRef .tc main_v1) = _
  after_results
  rfl

theorem V_values (c : Dev nD) : (V m c main_v2 : S64x4096x128.Idx → EReal)
    = shapeCast S64x4096x128 (m ((c.tc : Thread nD τ).loc main_arg2)) shapeCasts_S4x16x4096x128_S64x4096x128 := by
  show StableHlo.after hostOps0 (fun b => m (c, b)) (Proc.devRef .tc main_v2) = _
  after_results
  rfl

theorem V_memory (c : Dev nD) : (V m c main_v3 : S64x128x128.Idx → EReal)
    = shapeCast S64x128x128 (m ((c.tc : Thread nD τ).loc main_arg3)) shapeCasts_S4x16x128x128_S64x128x128 := by
  show StableHlo.after hostOps0 (fun b => m (c, b)) (Proc.devRef .tc main_v3) = _
  after_results
  rfl

theorem V_normaliser (c : Dev nD) : (V m c main_v4 : S64x1x128.Idx → EReal)
    = shapeCast S64x1x128 (m ((c.tc : Thread nD τ).loc main_arg4)) shapeCasts_S4x16x128x1_S64x1x128 := by
  show StableHlo.after hostOps0 (fun b => m (c, b)) (Proc.devRef .tc main_v4) = _
  after_results
  rfl

/-! ## The results are the reshaped outputs -/

theorem tail_out (c : Dev nD) : (Pipeline.afterTail₀ cfgs (dats m) 0 (V0 m) [hostOps1] c main_v6 : S4x16x4096x128.Idx → EReal)
    = shapeCast S4x16x4096x128 ((dats m 0 c).arrAt 5 cfg0.N) shapeCasts_S64x4096x128_S4x16x4096x128 := by
  unfold Pipeline.afterTail₀
  show StableHlo.after hostOps1 _ (Proc.devRef .tc main_v6) = _
  after_results
  have e := Pipeline.withArrays_arr spec0 launch0.win.arr_inj c (V0 m c) (fun w => (dats m 0 c).arrAt w cfg0.N) 5
  funext i
  show shapeCast S4x16x4096x128 (Pipeline.withArrays spec0 c (V0 m c) (fun w => (dats m 0 c).arrAt w cfg0.N)
    (Proc.devRef .tc (Pipeline.arrRef spec0 5))) shapeCasts_S64x4096x128_S4x16x4096x128 i = _
  rw [e]

theorem tail_mem (c : Dev nD) : (Pipeline.afterTail₀ cfgs (dats m) 0 (V0 m) [hostOps1] c main_v7 : S4x16x128x128.Idx → EReal)
    = shapeCast S4x16x128x128 ((dats m 0 c).arrAt 6 cfg0.N) shapeCasts_S64x128x128_S4x16x128x128 := by
  unfold Pipeline.afterTail₀
  show StableHlo.after hostOps1 _ (Proc.devRef .tc main_v7) = _
  after_results
  have e := Pipeline.withArrays_arr spec0 launch0.win.arr_inj c (V0 m c) (fun w => (dats m 0 c).arrAt w cfg0.N) 6
  funext i
  show shapeCast S4x16x128x128 (Pipeline.withArrays spec0 c (V0 m c) (fun w => (dats m 0 c).arrAt w cfg0.N)
    (Proc.devRef .tc (Pipeline.arrRef spec0 6))) shapeCasts_S64x128x128_S4x16x128x128 i = _
  rw [e]

theorem tail_nrm (c : Dev nD) : (Pipeline.afterTail₀ cfgs (dats m) 0 (V0 m) [hostOps1] c main_v8 : S4x16x128x1.Idx → EReal)
    = shapeCast S4x16x128x1 ((dats m 0 c).arrAt 7 cfg0.N) shapeCasts_S64x1x128_S4x16x128x1 := by
  unfold Pipeline.afterTail₀
  show StableHlo.after hostOps1 _ (Proc.devRef .tc main_v8) = _
  after_results
  have e := Pipeline.withArrays_arr spec0 launch0.win.arr_inj c (V0 m c) (fun w => (dats m 0 c).arrAt w cfg0.N) 7
  funext i
  show shapeCast S4x16x128x1 (Pipeline.withArrays spec0 c (V0 m c) (fun w => (dats m 0 c).arrAt w cfg0.N)
    (Proc.devRef .tc (Pipeline.arrRef spec0 7))) shapeCasts_S64x1x128_S4x16x128x1 i = _
  rw [e]

/-! ## The three results as functions of the arguments -/

theorem res_out (c : Dev nD) : (Pipeline.afterTail₀ cfgs (dats m) 0 (V0 m) [hostOps1] c main_v6 : S4x16x4096x128.Idx → EReal)
    = out4 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [tail_out, final5, V_queries, V_keys, V_values, V_memory, V_normaliser]
  exact out_split _ _ _ _ _ _ _ _ _

theorem res_mem (c : Dev nD) : (Pipeline.afterTail₀ cfgs (dats m) 0 (V0 m) [hostOps1] c main_v7 : S4x16x128x128.Idx → EReal)
    = mem4 (m ((c.tc : Thread nD τ).loc main_arg1)) (m ((c.tc : Thread nD τ).loc main_arg2))
        (m ((c.tc : Thread nD τ).loc main_arg3)) (m ((c.tc : Thread nD τ).loc main_arg4)) := by
  rw [tail_mem, final6, V_keys, V_values, V_memory, V_normaliser]
  exact mem_split _ _ _ _ _ _ _ _

theorem res_nrm (c : Dev nD) : (Pipeline.afterTail₀ cfgs (dats m) 0 (V0 m) [hostOps1] c main_v8 : S4x16x128x1.Idx → EReal)
    = nrm4 (m ((c.tc : Thread nD τ).loc main_arg1)) (m ((c.tc : Thread nD τ).loc main_arg4)) := by
  rw [tail_nrm, final7, V_keys, V_normaliser]
  exact nrm_split _ _ _ _ _

/-! ## The run -/

/-- Every weakly fair execution of the kernel's program terminates with the retrieval, the updated memory and the updated
    normaliser of every slab in its three results, and its arguments as launched. -/
theorem run : θ_run (defs (F := Ideal)) (onTc (τ := τ) (main (F := Ideal))) ⟨m, fun _ => 0, ρ⟩ fun r => ∀ c : Dev nD,
      r.2.mem ((c.tc : Thread nD τ).loc main_v6) = out4 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v7) = mem4 (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v8) = nrm4 (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v6 (Pipeline.mem_restRefs_of main_v6 (by decide) (by decide))).trans (res_out m c),
      ((h c).2 main_v7 (Pipeline.mem_restRefs_of main_v7 (by decide) (by decide))).trans (res_mem m c),
      ((h c).2 main_v8 (Pipeline.mem_restRefs_of main_v8 (by decide) (by decide))).trans (res_nrm m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  The fused delta-rule memory kernel against its jnp reference, on the extended reals.

  Both programs take queries, keys and values [4, 16, 4096, 128], a memory [4, 16, 128, 128] and a normaliser
  [4, 16, 128, 1], and return the retrieval, the updated memory and the updated normaliser: per (batch, head) slab,
  with φ = elu + 1,

    Δ = V − (φ(K) M) / ((φ(K) z) + ε),   M' = M + φ(K)ᵀ Δ,   z' = z + Σ_s φ(K)(s, ·),   out = (φ(Q) M') / ((φ(Q) z') + ε)

  (DeltaMemory). The kernel merges (batch, head) into 64 slabs, handles one slab per grid point and splits the axes
  again; the reference contracts inside each (batch, head) pair directly. Over the extended reals a matrix product into a
  zero accumulator, a lane or sublane sum and the host's contraction are all the same finite sums, the shared literals
  (0, 1, the float nearest 10⁻⁶) are the same numbers on both sides, and merging and splitting the leading axes moves no
  number (Regroup): so each result of either program is the slab formula at every index — the reference's by reading its
  stages (RefValue), the kernel's by reading its body on a slab's blocks (Body) and its blocks into the arrays
  (KernelValue). Nothing here needs the inputs finite: no law beyond reindexing a finite sum is used.

  The idealization rewrote nothing, so it preserves the kernel trivially; the three frames are the generated runs.
-/
import proofs.«113777_j88390426951900_2_alg».proof.Defs
import proofs.«113777_j88390426951900_2_alg».proof.Proof.Gen.Kernel
import proofs.«113777_j88390426951900_2_alg».proof.Proof.Gen.Kernel.Skeleton
import proofs.«113777_j88390426951900_2_alg».proof.Proof.Gen.Kernel.Launch
import proofs.«113777_j88390426951900_2_alg».proof.Proof.Gen.Kernel.Points
import proofs.«113777_j88390426951900_2_alg».proof.Proof.Gen.Kernel.Frame
import proofs.«113777_j88390426951900_2_alg».proof.Proof.Gen.KernelIdeal
import proofs.«113777_j88390426951900_2_alg».proof.Proof.Gen.KernelIdeal.Skeleton
import proofs.«113777_j88390426951900_2_alg».proof.Proof.Gen.KernelIdeal.Launch
import proofs.«113777_j88390426951900_2_alg».proof.Proof.Gen.KernelIdeal.Points
import proofs.«113777_j88390426951900_2_alg».proof.Proof.Gen.KernelIdeal.Frame
import proofs.«113777_j88390426951900_2_alg».proof.Proof.Gen.ReferenceIdeal
import proofs.«113777_j88390426951900_2_alg».proof.Proof.Gen.Pre_finite_inputs
import proofs.«113777_j88390426951900_2_alg».proof.Proof.Gen.ReferenceIdeal.Run
import proofs.«113777_j88390426951900_2_alg».proof.Proof.Gen.ReferenceIdeal.Read
import proofs.«113777_j88390426951900_2_alg».proof.Proof.RefValue
import proofs.«113777_j88390426951900_2_alg».proof.Proof.Body
import proofs.«113777_j88390426951900_2_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run, with the three results forgotten. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the five arguments both programs end with the retrieval, the updated memory and the updated
    normaliser of every slab: the kernel by its blocks, the reference by its stages. -/
theorem algebraic : Cert.algebraic_KernelIdeal_ReferenceIdeal := by
  intro m ρ m' ρ' _ hagree
  refine ⟨_, _, _, Cert.KernelIdeal.KernelValue.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Read.val_main_v33_eq, Cert.ReferenceIdeal.RefValue.ref_out, a0, a1, a2, a3, a4]
  · rw [Cert.ReferenceIdeal.Read.val_main_v16_eq, Cert.ReferenceIdeal.RefValue.ref_mem, a1, a2, a3, a4]
  · rw [Cert.ReferenceIdeal.Read.val_main_v19_eq, Cert.ReferenceIdeal.RefValue.ref_nrm, a1, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
